-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S50000x64 : Shape := ⟨2, ![50000, 64]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg8 : FVec F S64 .f32) (main_arg9 : FVec F S64x20 .f32) (main_arg10 : FVec F S20 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x20 .f32 := Host.absf main_arg9
  let main_cst_8 : FVec F S_ .f32 := constant S_ .f32 0x7F800000#32
  let main_v25 : FVec F S64x20 .f32 := broadcastInDim S64x20 ![] bcast_S_S64x20 main_cst_8
  let main_v26 : IVec S64x20 1 := cmpf .olt main_v24 main_v25
  let main_c_9 : IVec S_ 1 := constantI S_ 1 1#1
  let main_v27 : IVec S_ 1 := (fun x v => Host.reduce IntOp.andi x v reducesTo_S64x20_S_d0_1 h_S_) main_v26 main_c_9
  let main_v28 : IVec S_ 1 := andi main_v23 main_v27
  let main_v29 : FVec F S20 .f32 := Host.absf main_arg10
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : IVec S100000 32) (main_arg1 : IVec S1600000 32) (main_arg2 : IVec S1600000 32) (main_arg3 : IVec S100000 32) (main_arg4 : FVec F S50000x64 .f32) (main_arg5 : FVec F S64x64 .f32) (main_arg6 : FVec F S64 .f32) (main_arg7 : FVec F S64x64 .f32) (main_arg8 : FVec F S64 .f32) (main_arg9 : FVec F S64x20 .f32) (main_arg10 : FVec F S20 .f32) : IVec S_ 1 :=
  let main_v0 : FVec F S50000x64 .f32 := Host.absf main_arg4
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_v13 main_v16
-- ==== Kernel.lean ====
abbrev S100000 : Shape := ⟨1, ![100000]⟩
abbrev S1600000 : Shape := ⟨1, ![1600000]⟩
abbrev S50000x64 : Shape := ⟨2, ![50000, 64]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S128 : Shape := ⟨1, ![128]⟩
abbrev S128x64 : Shape := ⟨2, ![128, 64]⟩
abbrev S128x1 : Shape := ⟨2, ![128, 1]⟩
abbrev S1x20 : Shape := ⟨2, ![1, 20]⟩
abbrev S128x20 : Shape := ⟨2, ![128, 20]⟩

abbrev nBuf : Space → Nat
  | .hbm => 85
  | .vmem => 16
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S50000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x20, .f32⟩
  | .hbm, ⟨10, _⟩ => ⟨S20, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S128, .f32⟩
  | .hbm, ⟨71, _⟩ => ⟨S100000x1, .i32⟩
  | .hbm, ⟨72, _⟩ => ⟨S128, .f32⟩
  | .hbm, ⟨73, _⟩ => ⟨S_, .f32⟩
  | .hbm, ⟨74, _⟩ => ⟨S128x64, .f32⟩
  | .hbm, ⟨75, _⟩ => ⟨S100000x1, .i32⟩
  | .hbm, ⟨76, _⟩ => ⟨S128x64, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128x1, .f32⟩
  | .hbm, ⟨81, _⟩ => ⟨S128x64, .f32⟩
  | .hbm, ⟨82, _⟩ => ⟨S128x64, .f32⟩
  | .hbm, ⟨83, _⟩ => ⟨S1x20, .f32⟩
  | .hbm, ⟨84, _⟩ => ⟨S128x20, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S128x64, .f32⟩
  | .local _ .vmem, ⟨13, _⟩ => ⟨S64x20, .f32⟩
  | .local _ .vmem, ⟨14, _⟩ => ⟨S1x20, .f32⟩
  | .local _ .vmem, ⟨15, _⟩ => ⟨S128x20, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_13 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S20_S1x20 : S20.ShapeCasts S1x20
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x20_S64x20_0_0 : ∀ a, (![0, 0] : Fin 2 → Nat) a + S64x20.size a ≤ S64x20.size a
  h_S64x20 : 0 < S64x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S128x20 : S1x20.Broadcasts S128x20
  inb_S128x20_S128x20_0_0 : ∀ a, (![0, 0] : Fin 2 → Nat) a + S128x20.size a ≤ S128x20.size a
  h_S128x20 : 0 < S128x20.numel
  gather_S50000x64_S100000x1_S100000x64_1_0_n_n_0_1_164_wf : GatherDims.WF S50000x64 S100000x1 S100000x64 [1] [0] [] [0] [] 1 ![1, 64]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x20_S128x20_1_0_0_1_n_n_wf : DotDims.WF S128x64 S64x20 S128x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S128x64.size a ≤ S128x64.size a
  hwx2_0 : ∀ i : grid2.Coords, EltTy.bits .f32 = 32 ∨ (Rect.block (s := S128x64) S128x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x20.size a ≤ S64x20.size a
  hwx2_1 : ∀ i : grid2.Coords, EltTy.bits .f32 = 32 ∨ (Rect.block (s := S64x20) S64x20.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20.size a ≤ S1x20.size a
  hwx2_2 : ∀ i : grid2.Coords, EltTy.bits .f32 = 32 ∨ (Rect.block (s := S1x20) S1x20.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S128x20.size a ≤ S128x20.size a
  hwx2_3 : ∀ i : grid2.Coords, EltTy.bits .f32 = 32 ∨ (Rect.block (s := S128x20) S128x20.size (cc2_transform_3 i) (hinb2_3 i)).WholeWords (EltTy.packing .f32)

variable [Facts₀]

def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x20_S128x20_1_0_0_1_n_n : DotDims S128x64 S64x20 S128x20 where
  lhsContracting := [1]
  rhsContracting := [0]
  lhsNonContracting := [0]
  rhsNonContracting := [1]
  lhsBatch := []
  rhsBatch := []
  wf := dot_S128x64_S64x20_S128x20_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S128x64.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x20.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S1600000 : Shape := ⟨1, ![1600000]⟩
abbrev S50000x64 : Shape := ⟨2, ![50000, 64]⟩
abbrev S64x64 : Shape := ⟨2, ![64, 64]⟩
abbrev S64 : Shape := ⟨1, ![64]⟩
abbrev S64x20 : Shape := ⟨2, ![64, 20]⟩
abbrev S20 : Shape := ⟨1, ![20]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S128 : Shape := ⟨1, ![128]⟩
abbrev S128x64 : Shape := ⟨2, ![128, 64]⟩
abbrev S128x1 : Shape := ⟨2, ![128, 1]⟩
abbrev S128x20 : Shape := ⟨2, ![128, 20]⟩
abbrev S1x20 : Shape := ⟨2, ![1, 20]⟩

abbrev nBuf : Space → Nat
  | .hbm => 97
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S50000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x20, .f32⟩
  | .hbm, ⟨10, _⟩ => ⟨S20, .f32⟩
  | .hbm, ⟨11, _⟩ => ⟨S_, .i32⟩
  | .hbm, ⟨12, _⟩ => ⟨S100000, .i32⟩
  | .hbm, ⟨13, _⟩ => ⟨S100000, .i1⟩
  | .hbm, ⟨14, _⟩ => ⟨S_, .i32⟩
  | .hbm, ⟨15, _⟩ => ⟨S100000, .i32⟩
  | .hbm, ⟨16, _⟩ => ⟨S100000, .i32⟩
  | .hbm, ⟨17, _⟩ => ⟨S100000, .i32⟩
  | .hbm, ⟨18, _⟩ => ⟨S100000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S128, .f32⟩
  | .hbm, ⟨81, _⟩ => ⟨S100000x1, .i32⟩
  | .hbm, ⟨82, _⟩ => ⟨S128, .f32⟩
  | .hbm, ⟨83, _⟩ => ⟨S_, .f32⟩
  | .hbm, ⟨84, _⟩ => ⟨S128x64, .f32⟩
  | .hbm, ⟨85, _⟩ => ⟨S100000x1, .i32⟩
  | .hbm, ⟨86, _⟩ => ⟨S128x64, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128x1, .f32⟩
  | .hbm, ⟨91, _⟩ => ⟨S128x64, .f32⟩
  | .hbm, ⟨92, _⟩ => ⟨S128x64, .f32⟩
  | .hbm, ⟨93, _⟩ => ⟨S128x20, .f32⟩
  | .hbm, ⟨94, _⟩ => ⟨S1x20, .f32⟩
  | .hbm, ⟨95, _⟩ => ⟨S128x20, .f32⟩
  | .hbm, ⟨96, _⟩ => ⟨S128x20, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_cst_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S20_S1x20_1 : S20.BroadcastsInDim S1x20 (![1] : Fin 1 → Fin S1x20.rank)
  bcast_S1x20_S128x20_0_1 : S1x20.BroadcastsInDim S128x20 (![0, 1] : Fin 2 → Fin S128x20.rank)
  gather_S50000x64_S100000x1_S100000x64_1_0_n_n_0_1_164_wf : GatherDims.WF S50000x64 S100000x1 S100000x64 [1] [0] [] [0] [] 1 ![1, 64]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x20_S128x20_1_0_0_1_n_n_wf : DotDims.WF S128x64 S64x20 S128x20 [1] [0] [0] [1] [] []

variable [Facts₀]

def gather_S50000x64_S100000x1_S100000x64_1_0_n_n_0_1_164 : GatherDims S50000x64 S100000x1 S100000x64 where
  offsetDims := [1]
  collapsedSliceDims := [0]
  operandBatchingDims := []
  startIndicesBatchingDims := []
  startIndexMap := [0]
  indexVectorDim := 1
  sliceSizes := ![1, 64]
  wf := gather_S50000x64_S100000x1_S100000x64_1_0_n_n_0_1_164_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x20_S128x20_1_0_0_1_n_n : DotDims S128x64 S64x20 S128x20 where
  lhsContracting := [1]
  rhsContracting := [0]
  lhsNonContracting := [0]
  rhsNonContracting := [1]
  lhsBatch := []
  rhsBatch := []
  wf := dot_S128x64_S64x20_S128x20_1_0_0_1_n_n_wf

class Facts : Prop extends Facts₀ where

variable [Facts]
-- ==== Proof.KernelRun.lean ====
/-
  The idealized kernel's run, with its result named.

  @main is six segments: three stretches of host operations, each followed by one region.  Threading the buffer
  contents through them gives the contents at the last boundary, W6; every weakly fair execution ends, without a
  fault, in a state whose unscoped buffers hold exactly W6.  So the result array ends at W6 read at the result's
  buffer, and the eleven argument arrays end as launched.
-/
import proofs.«151757_j9783935500741_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem named : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«151757_j9783935500741_1_alg».proof.Proof.LibMatmulPlain
import proofs.«151757_j9783935500741_1_alg».proof.Proof.LibDotsNT
import proofs.«151757_j9783935500741_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«151757_j9783935500741_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.TilePayload.lean ====
/-
  What one tile of rows computes, at the exact (extended-real) reading.

  Every region of this network is one dense layer on a tile of rows: the rows x : [a, 64], a weight matrix
  W : [64, n] and a bias row b : [1, n] are loaded whole; x and W are rounded to bfloat16 (a change of format, which
  does nothing to an extended real), multiplied by the matrix unit into a zero accumulator, the bias row is spread
  over the rows and added, and — in the two hidden layers — the larger of the result and zero is kept.  Entry (r, q)
  of the tile is therefore  max (sum over c of x(r, c) * W(c, q) + b(0, q)) 0  for the hidden layers, and the same
  without the maximum for the classifier head.
-/
import proofs.«151757_j9783935500741_1_alg».proof.Proof.Gen.KernelIdeal
import proofs.«151757_j9783935500741_1_alg».proof.Proof.Gen.KernelIdeal.Skeleton
import proofs.«151757_j9783935500741_1_alg».proof.Proof.LibDenseBranch

noncomputable section

namespace Cert.KernelIdeal.Tile

open Cert.KernelIdeal Cert.KernelIdeal.Gen Idealize.ShloMosaic

/-- First hidden layer, a tile of 5000 rows: the stored value is the rectified layer of the three loaded blocks. -/
theorem hidden1 (x0 : FVec Ideal S5000x64 .f32) (x1 : FVec Ideal S64x64 .f32) (x2 : FVec Ideal S1x64 .f32) :
    k0_pay1 (F := Ideal) x0 x1 x2 = Cert.Branch.act x0 x1 x2 := by
  unfold k0_pay1
  dsimp only
  rw [shapeCast_self]
  exact Cert.Branch.tile_act dot_S5000x64_S64x64_S5000x64_1_0_0_1_n_n rfl rfl rfl rfl rfl rfl x0 x1 x2
    bitsLt_bf16_f32 shapeCasts_S1x64_S1x64 broadcasts_S1x64_S5000x64

/-- Second hidden layer: the same function of its own three blocks. -/
theorem hidden2 (x0 : FVec Ideal S5000x64 .f32) (x1 : FVec Ideal S64x64 .f32) (x2 : FVec Ideal S1x64 .f32) :
    k1_pay1 (F := Ideal) x0 x1 x2 = Cert.Branch.act x0 x1 x2 := by
  unfold k1_pay1
  dsimp only
  rw [shapeCast_self]
  exact Cert.Branch.tile_act dot_S5000x64_S64x64_S5000x64_1_0_0_1_n_n rfl rfl rfl rfl rfl rfl x0 x1 x2
    bitsLt_bf16_f32 shapeCasts_S1x64_S1x64 broadcasts_S1x64_S5000x64

/-- Classifier head, one tile of all 128 graphs: the product plus the bias row, no maximum. -/
theorem head (x0 : FVec Ideal S128x64 .f32) (x1 : FVec Ideal S64x20 .f32) (x2 : FVec Ideal S1x20 .f32) :
    k2_pay1 (F := Ideal) x0 x1 x2 = Cert.Dense.biased x0 x1 x2 := by
  unfold k2_pay1
  dsimp only
  rw [shapeCast_self]
  funext i
  obtain ⟨r, q, rfl⟩ : ∃ (r : Fin 128) (q : Fin 20), i = ValueIdx.ix2 r q := ⟨i 0, i 1, ValueIdx.eq_ix2 i⟩
  rw [Cert.Dense.matmul_eq_prod dot_S128x64_S64x20_S128x20_1_0_0_1_n_n rfl rfl rfl rfl rfl rfl x0 x1 bitsLt_bf16_f32]
  exact Cert.Dense.tile_biased _ x2 shapeCasts_S1x20_S1x20 broadcasts_S1x20_S128x20 r q

end Cert.KernelIdeal.Tile

end
-- ==== Proof.Hidden1.lean ====
/-
  The first hidden layer (region 0): what its result array holds once all twenty grid points have run.

  The 100000 rows of the input array are cut into twenty blocks of 5000 consecutive rows, one per grid point; the
  weight matrix and the bias row are the same whole arrays at every point.  Point t reads block t of the input,
  computes the rectified dense layer of that block, and writes it back as block t of the result.  An entry of a dense
  layer reads only its own row of the input, so block t of the layer of the WHOLE input is the layer of block t; and
  the twenty blocks tile the rows (row r lies in block r / 5000).  Hence the result array is the rectified dense
  layer of the whole input array:  result(r, q) = max (sum over c of input(r, c) * W(c, q) + b(0, q)) 0.

  Everything is stated at an arbitrary valuation V of the buffers at the moment the region is entered.
-/
import proofs.«151757_j9783935500741_1_alg».proof.Proof.Gen.KernelIdeal.Frame
import proofs.«151757_j9783935500741_1_alg».proof.Proof.TilePayload
import Idealize.ShloMosaic.Lib.Pipeline.Value
import Idealize.ShloMosaic.Lib.ValueIdx

noncomputable section

namespace Cert.KernelIdeal.Hidden1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the twenty points: the input's block moves with the output's along the rows;
    the weight matrix, the bias row and the column axis stay at block 0. -/
theorem index_maps : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every one of the twenty row blocks is some point's. -/
theorem block_of_point : ∀ q : Fin 20, ∃ t : Fin cfg0.N, win0_3.index t = ![q.val, 0] :=
  (by decide +kernel : ∀ q : Fin 20, ∃ t : Fin grid0.N, win0_3.index t = ![q.val, 0])

/-- The input window's block at a point, read at an entry: the input array at the embedded index. -/
theorem rows_block (c : Dev nD) (t : Fin cfg0.N) (y : S5000x64.Idx) :
    iblk0 V c 0 t y = V c main_v27 (((cfg0.win 0).blk t).view.emb y) := rfl
theorem weight_block (c : Dev nD) (t : Fin cfg0.N) (y : S64x64.Idx) :
    iblk0 V c 1 t y = V c main_arg5 (((cfg0.win 1).blk t).view.emb y) := rfl
theorem bias_block (c : Dev nD) (t : Fin cfg0.N) (y : S1x64.Idx) :
    iblk0 V c 2 t y = V c main_v28 (((cfg0.win 2).blk t).view.emb y) := rfl

/-- What point t writes back is block t of the rectified layer of the whole arrays as the region finds them. -/
theorem flushed_eq (c : Dev nD) (t : Fin cfg0.N) :
    (dat0 V c).flushed 3 t = ((cfg0.win 3).blk t).view.read (Elt Ideal)
      (Cert.Branch.act (V c main_v27) (V c main_arg5) (V c main_v28)) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets,
    View.ld_unit_zero (S := S1x64) zero_offsets]
  rw [Cert.KernelIdeal.Tile.hidden1]
  obtain ⟨e0, e1, e2, e3, e4, e5, e6, e7⟩ := index_maps t
  funext j
  show Cert.Branch.act (iblk0 V c 0 t) (iblk0 V c 1 t) (iblk0 V c 2 t) j
    = Cert.Branch.act (V c main_v27) (V c main_arg5) (V c main_v28) (((cfg0.win 3).blk t).view.emb j)
  refine Cert.Branch.act_at (V c main_v27) (V c main_arg5) (V c main_v28) (iblk0 V c 0 t) (iblk0 V c 1 t)
    (iblk0 V c 2 t) j (((cfg0.win 3).blk t).view.emb j) (fun k => ?_) (fun y => ?_) (fun y => ?_) ?_
  · rw [rows_block]
    refine congrArg (V c main_v27) ?_
    funext a; apply Fin.ext
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 64 + 1 * k.val = k.val
      omega
  · rw [weight_block]
    refine congrArg (V c main_arg5) ?_
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  · rw [bias_block]
    refine congrArg (V c main_v28) ?_
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  · apply Fin.ext
    show (j 1).val = win0_3.index t (1 : Fin 2) * 64 + 1 * (j 1).val
    omega

/-- An index of the result array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v29).slice (win0_3.rect t)).set ↔ _
  rw [View.set_slice_whole, Rect.mem_set_unit]
  exact Iff.rfl

/-- The twenty blocks cover the result array: row r is in the block of point r / 5000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := block_of_point ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- The result array after the region: the rectified dense layer of the input array, the weights and the bias row as
    the region finds them. -/
theorem result (c : Dev nD) :
    (dat0 V c).arrAt 3 cfg0.N = Cert.Branch.act (V c main_v27) (V c main_arg5) (V c main_v28) :=
  (dat0 V c).arrAt_eq_of_cover 3 _ (fun t _ => flushed_eq V c t) covered

end Cert.KernelIdeal.Hidden1

end
-- ==== Proof.Hidden2.lean ====
/-
  The second hidden layer (region 1): what its result array holds once all twenty grid points have run.

  The 100000 rows of the input array are cut into twenty blocks of 5000 consecutive rows, one per grid point; the
  weight matrix and the bias row are the same whole arrays at every point.  Point t reads block t of the input,
  computes the rectified dense layer of that block, and writes it back as block t of the result.  An entry of a dense
  layer reads only its own row of the input, so block t of the layer of the WHOLE input is the layer of block t; and
  the twenty blocks tile the rows (row r lies in block r / 5000).  Hence the result array is the rectified dense
  layer of the whole input array:  result(r, q) = max (sum over c of input(r, c) * W(c, q) + b(0, q)) 0.

  Everything is stated at an arbitrary valuation V of the buffers at the moment the region is entered.
-/
import proofs.«151757_j9783935500741_1_alg».proof.Proof.Gen.KernelIdeal.Frame
import proofs.«151757_j9783935500741_1_alg».proof.Proof.TilePayload
import Idealize.ShloMosaic.Lib.Pipeline.Value
import Idealize.ShloMosaic.Lib.ValueIdx

noncomputable section

namespace Cert.KernelIdeal.Hidden2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the twenty points: the input's block moves with the output's along the rows;
    the weight matrix, the bias row and the column axis stay at block 0. -/
theorem index_maps : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the twenty row blocks is some point's. -/
theorem block_of_point : ∀ q : Fin 20, ∃ t : Fin cfg1.N, win1_3.index t = ![q.val, 0] :=
  (by decide +kernel : ∀ q : Fin 20, ∃ t : Fin grid1.N, win1_3.index t = ![q.val, 0])

/-- The input window's block at a point, read at an entry: the input array at the embedded index. -/
theorem rows_block (c : Dev nD) (t : Fin cfg1.N) (y : S5000x64.Idx) :
    iblk1 V c 0 t y = V c main_v41 (((cfg1.win 0).blk t).view.emb y) := rfl
theorem weight_block (c : Dev nD) (t : Fin cfg1.N) (y : S64x64.Idx) :
    iblk1 V c 1 t y = V c main_arg7 (((cfg1.win 1).blk t).view.emb y) := rfl
theorem bias_block (c : Dev nD) (t : Fin cfg1.N) (y : S1x64.Idx) :
    iblk1 V c 2 t y = V c main_v42 (((cfg1.win 2).blk t).view.emb y) := rfl

/-- What point t writes back is block t of the rectified layer of the whole arrays as the region finds them. -/
theorem flushed_eq (c : Dev nD) (t : Fin cfg1.N) :
    (dat1 V c).flushed 3 t = ((cfg1.win 3).blk t).view.read (Elt Ideal)
      (Cert.Branch.act (V c main_v41) (V c main_arg7) (V c main_v42)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S1x64) zero_offsets]
  rw [Cert.KernelIdeal.Tile.hidden2]
  obtain ⟨e0, e1, e2, e3, e4, e5, e6, e7⟩ := index_maps t
  funext j
  show Cert.Branch.act (iblk1 V c 0 t) (iblk1 V c 1 t) (iblk1 V c 2 t) j
    = Cert.Branch.act (V c main_v41) (V c main_arg7) (V c main_v42) (((cfg1.win 3).blk t).view.emb j)
  refine Cert.Branch.act_at (V c main_v41) (V c main_arg7) (V c main_v42) (iblk1 V c 0 t) (iblk1 V c 1 t)
    (iblk1 V c 2 t) j (((cfg1.win 3).blk t).view.emb j) (fun k => ?_) (fun y => ?_) (fun y => ?_) ?_
  · rw [rows_block]
    refine congrArg (V c main_v41) ?_
    funext a; apply Fin.ext
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 64 + 1 * k.val = k.val
      omega
  · rw [weight_block]
    refine congrArg (V c main_arg7) ?_
    funext a; apply Fin.ext
    match a with
    | ⟨0, _⟩ => show win1_1.index t (0 : Fin 2) * 64 + 1 * (y 0).val = (y 0).val; omega
    | ⟨1, _⟩ => show win1_1.index t (1 : Fin 2) * 64 + 1 * (y 1).val = (y 1).val; omega
  · rw [bias_block]
    refine congrArg (V c main_v42) ?_
    funext a; apply Fin.ext
    match a with
    | ⟨0, _⟩ => show win1_2.index t (0 : Fin 2) * 1 + 1 * (y 0).val = (y 0).val; omega
    | ⟨1, _⟩ => show win1_2.index t (1 : Fin 2) * 64 + 1 * (y 1).val = (y 1).val; omega
  · apply Fin.ext
    show (j 1).val = win1_3.index t (1 : Fin 2) * 64 + 1 * (j 1).val
    omega

/-- An index of the result array is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v43).slice (win1_3.rect t)).set ↔ _
  rw [View.set_slice_whole, Rect.mem_set_unit]
  exact Iff.rfl

/-- The twenty blocks cover the result array: row r is in the block of point r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := block_of_point ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The result array after the region: the rectified dense layer of the input array, the weights and the bias row as
    the region finds them. -/
theorem result (c : Dev nD) :
    (dat1 V c).arrAt 3 cfg1.N = Cert.Branch.act (V c main_v41) (V c main_arg7) (V c main_v42) :=
  (dat1 V c).arrAt_eq_of_cover 3 _ (fun t _ => flushed_eq V c t) covered

end Cert.KernelIdeal.Hidden2

end
-- ==== Proof.HeadRegion.lean ====
/-
  The classifier head (region 2): what its result array holds after its single grid point has run.

  The grid has one point, and each window's block is its whole array: the pooled features [128, 64], the weight
  matrix [64, 20] and the bias row [1, 20].  The point computes the product plus the bias row and writes it back as
  the whole result [128, 20].  Hence  result(g, q) = sum over c of pooled(g, c) * W(c, q) + b(0, q).

  Stated at an arbitrary valuation V of the buffers at the moment the region is entered.
-/
import proofs.«151757_j9783935500741_1_alg».proof.Proof.Gen.KernelIdeal.Frame
import proofs.«151757_j9783935500741_1_alg».proof.Proof.TilePayload
import Idealize.ShloMosaic.Lib.Pipeline.Value
import Idealize.ShloMosaic.Lib.ValueIdx

noncomputable section

namespace Cert.KernelIdeal.Head

open Cert.KernelIdeal Cert.KernelIdeal.Gen Idealize.ShloMosaic Idealize.ShloMosaic.TcCoe Idealize.SL.Sem
open Idealize.ShloMosaic.Pipeline (Dat)
open Idealize.ShloMosaic.ValueIdx

/-- An entry of the biased product reads only its own row of the left operand: if row (j 0) of xb is row (i 0) of
    X, the weights and the bias rows agree, and the columns agree, the two entries are equal. -/
theorem biased_at {a k n N : ℕ} (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    Cert.Dense.biased xb wb bb j = Cert.Dense.biased X W B i := by
  show Cert.Dense.prod xb wb j + bb (ix2 (0 : Fin 1) (j 1)) = Cert.Dense.prod X W i + B (ix2 (0 : Fin 1) (i 1))
  rw [Cert.Branch.prod_at X W xb wb j i hx hw hq, hb, hq]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps at the one point: every window is at block 0 on both axes. -/
theorem index_maps : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem rows_block (c : Dev nD) (t : Fin cfg2.N) (y : S128x64.Idx) :
    iblk2 V c 0 t y = V c main_v55 (((cfg2.win 0).blk t).view.emb y) := rfl
theorem weight_block (c : Dev nD) (t : Fin cfg2.N) (y : S64x20.Idx) :
    iblk2 V c 1 t y = V c main_arg9 (((cfg2.win 1).blk t).view.emb y) := rfl
theorem bias_block (c : Dev nD) (t : Fin cfg2.N) (y : S1x20.Idx) :
    iblk2 V c 2 t y = V c main_v56 (((cfg2.win 2).blk t).view.emb y) := rfl

/-- What the point writes back is the (whole) block of the biased product of the whole arrays as the region finds them. -/
theorem flushed_eq (c : Dev nD) (t : Fin cfg2.N) :
    (dat2 V c).flushed 3 t = ((cfg2.win 3).blk t).view.read (Elt Ideal)
      (Cert.Dense.biased (V c main_v55) (V c main_arg9) (V c main_v56)) := by
  show (cfg2.win 3).cut (grid2.coords t) ((dat2 V c).after 3 t) = _
  rw [after2_3]
  unfold out2_3
  rw [View.canon_unit_zero zero_offsets]
  simp only [View.ld_unit_zero (S := S128x64) zero_offsets, View.ld_unit_zero (S := S64x20) zero_offsets,
    View.ld_unit_zero (S := S1x20) zero_offsets]
  rw [Cert.KernelIdeal.Tile.head]
  obtain ⟨e0, e1, e2, e3, e4, e5, e6, e7⟩ := index_maps t
  funext j
  show Cert.Dense.biased (iblk2 V c 0 t) (iblk2 V c 1 t) (iblk2 V c 2 t) j
    = Cert.Dense.biased (V c main_v55) (V c main_arg9) (V c main_v56) (((cfg2.win 3).blk t).view.emb j)
  refine biased_at (V c main_v55) (V c main_arg9) (V c main_v56) (iblk2 V c 0 t) (iblk2 V c 1 t)
    (iblk2 V c 2 t) j (((cfg2.win 3).blk t).view.emb j) (fun k => ?_) (fun y => ?_) (fun y => ?_) ?_
  · rw [rows_block]
    refine congrArg (V c main_v55) ?_
    funext a; apply Fin.ext
    match a with
    | ⟨0, _⟩ =>
      show win2_0.index t (0 : Fin 2) * 128 + 1 * (j 0).val = win2_3.index t (0 : Fin 2) * 128 + 1 * (j 0).val
      omega
    | ⟨1, _⟩ =>
      show win2_0.index t (1 : Fin 2) * 64 + 1 * k.val = k.val
      omega
  · rw [weight_block]
    refine congrArg (V c main_arg9) ?_
    funext a; apply Fin.ext
    match a with
    | ⟨0, _⟩ => show win2_1.index t (0 : Fin 2) * 64 + 1 * (y 0).val = (y 0).val; omega
    | ⟨1, _⟩ => show win2_1.index t (1 : Fin 2) * 20 + 1 * (y 1).val = (y 1).val; omega
  · rw [bias_block]
    refine congrArg (V c main_v56) ?_
    funext a; apply Fin.ext
    match a with
    | ⟨0, _⟩ => show win2_2.index t (0 : Fin 2) * 1 + 1 * (y 0).val = (y 0).val; omega
    | ⟨1, _⟩ => show win2_2.index t (1 : Fin 2) * 20 + 1 * (y 1).val = (y 1).val; omega
  · apply Fin.ext
    show (j 1).val = win2_3.index t (1 : Fin 2) * 20 + 1 * (j 1).val
    omega

/-- An index of the result array is in the point's block iff each coordinate is in the block's range on its axis. -/
theorem mem_block (t : Fin cfg2.N) (i : S128x20.Idx) :
    i ∈ ((cfg2.win 3).blk t).view.set ↔ ∀ a : Fin 2, win2_3.index t a * S128x20.size a ≤ (i a).val
      ∧ (i a).val < win2_3.index t a * S128x20.size a + S128x20.size a := by
  show i ∈ ((View.whole main_v57).slice (win2_3.rect t)).set ↔ _
  rw [View.set_slice_whole, Rect.mem_set_unit]
  exact Iff.rfl

/-- The one block is the whole result array. -/
theorem covered (i : S128x20.Idx) :
    ∃ t : Fin cfg2.N, (cfg2.win 3).flush t = true ∧ i ∈ ((cfg2.win 3).blk t).view.set := by
  have hi0 : (i 0).val < 128 := (i 0).isLt
  have hi1 : (i 1).val < 20 := (i 1).isLt
  obtain ⟨e0, e1, e2, e3, e4, e5, e6, e7⟩ := index_maps t2_0
  refine ⟨t2_0, flush2_3 t2_0, ?_⟩
  rw [mem_block]
  intro a
  match a with
  | ⟨0, _⟩ =>
    show win2_3.index t2_0 (0 : Fin 2) * 128 ≤ (i 0).val ∧ (i 0).val < win2_3.index t2_0 (0 : Fin 2) * 128 + 128
    omega
  | ⟨1, _⟩ =>
    show win2_3.index t2_0 (1 : Fin 2) * 20 ≤ (i 1).val ∧ (i 1).val < win2_3.index t2_0 (1 : Fin 2) * 20 + 20
    omega

/-- The result array after the region: the pooled features times the weights plus the bias row, as the region finds them. -/
theorem result (c : Dev nD) :
    (dat2 V c).arrAt 3 cfg2.N = Cert.Dense.biased (V c main_v55) (V c main_arg9) (V c main_v56) :=
  (dat2 V c).arrAt_eq_of_cover 3 _ (fun t _ => flushed_eq V c t) covered

end Cert.KernelIdeal.Head

end
-- ==== Proof.ChainsKernel.lean ====
/-
  The host-side stages of the network that are not dense layers, each as one named function of its operands.

  embed      — the embedding lookup: row tokens(r) of the table, a negative token counted from the end of the 50000
               rows (the indexing convention), then clamped into the table by the gather.
  invDegree  — for each node, 1 / max(number of edges arriving at it, 1), kept as a column [100000, 1]: ones are
               scatter-added at the edges' destinations, the count is raised to at least one, and one is divided by it.
  aggregate  — mean aggregation over incoming edges: the features are gathered at the edges' sources (a negative
               source counted from the end of the 100000 rows), scatter-added at the edges' destinations, and every
               row is multiplied by its node's inverse degree.
  graphMean  — mean pooling per graph: the node features are scatter-added at the nodes' graph numbers into 128
               rows and each row is divided by max(number of nodes of that graph, 1).

  The two programs apply exactly these operations, with the same literals, to the same arrays.  The proof never
  reasons about what a stage computes, only that both programs spell it the same way.  The functions are stated for
  any interpretation F of the floating-point operations.
-/
import proofs.«151757_j9783935500741_1_alg».proof.Proof.Gen.KernelIdeal

noncomputable section

namespace Cert.KernelIdeal.Chains

open Cert.KernelIdeal Cert.KernelIdeal.Gen Idealize.ShloMosaic

variable {F : FTy → Type} [FloatOps F]

/-- The embedding lookup  table[tokens]. -/
def embed (a0 : (⟨S100000, .i32⟩ : BufTy).Contents (Elt F)) (a4 : (⟨S50000x64, .f32⟩ : BufTy).Contents (Elt F)) :
    (⟨S100000x64, .f32⟩ : BufTy).Contents (Elt F) :=
  Host.gather gather_S50000x64_S100000x1_S100000x64_1_0_n_n_0_1_164 a4 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 50000#32))) a0))

/-- The column of inverse in-degrees  1 / max(deg, 1). -/
def invDegree (a2 : (⟨S1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a2) (broadcastInDim S1600000 ![] bcast_S_S1600000 (constant S_ .f32 0x3F800000#32))) (broadcastInDim S100000 ![] bcast_S_S100000 (constant S_ .f32 0x3F800000#32))))

/-- Mean aggregation of the features h over incoming edges, given the column s of inverse in-degrees. -/
def aggregate (h : (⟨S100000x64, .f32⟩ : BufTy).Contents (Elt F)) (a1 a2 : (⟨S1600000, .i32⟩ : BufTy).Contents (Elt F))
    (s : (⟨S100000x1, .f32⟩ : BufTy).Contents (Elt F)) : (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a2) (Host.gather gather_S100000x64_S1600000x1_S1600000x64_1_0_n_n_0_1_164 h (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) (broadcastInDim S100000x64 ![0, 1] bcast_S100000x1_S100000x64_0_1 s)

/-- Mean pooling of the node features h per graph. -/
def graphMean (h : (⟨S100000x64, .f32⟩ : BufTy).Contents (Elt F)) (a3 : (⟨S100000, .i32⟩ : BufTy).Contents (Elt F)) :
    (⟨S128x64, .f32⟩ : BufTy).Contents (Elt F) :=
  Host.divf (Host.scatterAdd scatter_S128x64_S100000x1_S100000x64_1_0_0_1 (broadcastInDim S128x64 ![] bcast_S_S128x64 (constant S_ .f32 0x00000000#32)) (broadcastInDim S100000x1 ![0] bcast_S100000_S100000x1_0 a3) h) (broadcastInDim S128x64 ![0, 1] bcast_S128x1_S128x64_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 a3) (broadcastInDim S100000 ![] bcast_S_S100000 (constant S_ .f32 0x3F800000#32))) (broadcastInDim S128 ![] bcast_S_S128 (constant S_ .f32 0x3F800000#32)))))

end Cert.KernelIdeal.Chains

end
-- ==== Proof.KernelValue.lean ====
/-
  The idealized kernel's result as the network's stages composed.

  Between the regions the host applies the shared stages (embedding lookup, inverse in-degrees, mean aggregation, mean
  pooling, and a reshape of each bias vector into one row); each region leaves the dense layer of the arrays it finds.
  Reading the buffer contents boundary by boundary, from the last one back to the launch memory, the result array ends
  at  head(graphMean(hidden(aggregate(hidden(aggregate(embed))))))  of the eleven argument arrays, where a hidden layer is
  max(A W + b, 0) and the head is A W + b, entry by entry.  No region and no host operation writes an argument array,
  so an argument read at any boundary is the argument as launched.
-/
import proofs.«151757_j9783935500741_1_alg».proof.Proof.Gen.KernelIdeal.Frame
import proofs.«151757_j9783935500741_1_alg».proof.Proof.Hidden1
import proofs.«151757_j9783935500741_1_alg».proof.Proof.Hidden2
import proofs.«151757_j9783935500741_1_alg».proof.Proof.HeadRegion
import proofs.«151757_j9783935500741_1_alg».proof.Proof.ChainsKernel
import Idealize.ShloMosaic.Lib.StableHlo.Run

set_option maxRecDepth 16384

noncomputable section

namespace Cert.KernelIdeal.Net

open Cert.KernelIdeal Cert.KernelIdeal.Gen Cert.KernelIdeal.Chains
open Idealize.ShloMosaic Idealize.ShloMosaic.TcCoe Idealize.SL.Sem Idealize.ShloMosaic.StableHlo

/-- A bias vector of 64 entries laid out as one row. -/
def row64 (b : (⟨S64, .f32⟩ : BufTy).Contents (Elt Ideal)) : (⟨S1x64, .f32⟩ : BufTy).Contents (Elt Ideal) :=
  shapeCast S1x64 b shapeCasts_S64_S1x64
/-- A bias vector of 20 entries laid out as one row. -/
def row20 (b : (⟨S20, .f32⟩ : BufTy).Contents (Elt Ideal)) : (⟨S1x20, .f32⟩ : BufTy).Contents (Elt Ideal) :=
  shapeCast S1x20 b shapeCasts_S20_S1x20

section Stages
variable (a0 : (⟨S100000, .i32⟩ : BufTy).Contents (Elt Ideal)) (a1 a2 : (⟨S1600000, .i32⟩ : BufTy).Contents (Elt Ideal))
  (a3 : (⟨S100000, .i32⟩ : BufTy).Contents (Elt Ideal)) (a4 : (⟨S50000x64, .f32⟩ : BufTy).Contents (Elt Ideal))
  (a5 : (⟨S64x64, .f32⟩ : BufTy).Contents (Elt Ideal)) (a6 : (⟨S64, .f32⟩ : BufTy).Contents (Elt Ideal))
  (a7 : (⟨S64x64, .f32⟩ : BufTy).Contents (Elt Ideal)) (a8 : (⟨S64, .f32⟩ : BufTy).Contents (Elt Ideal))
  (a9 : (⟨S64x20, .f32⟩ : BufTy).Contents (Elt Ideal)) (a10 : (⟨S20, .f32⟩ : BufTy).Contents (Elt Ideal))

/-- The embedded tokens, mean-aggregated over incoming edges. -/
def agg1 : (⟨S100000x64, .f32⟩ : BufTy).Contents (Elt Ideal) := aggregate (embed a0 a4) a1 a2 (invDegree a2)
/-- The first hidden layer. -/
def hid1 : (⟨S100000x64, .f32⟩ : BufTy).Contents (Elt Ideal) :=
  Cert.Branch.act (a := 100000) (k := 64) (n := 64) (agg1 a0 a1 a2 a4) a5 (row64 a6)
/-- Its mean aggregation. -/
def agg2 : (⟨S100000x64, .f32⟩ : BufTy).Contents (Elt Ideal) := aggregate (hid1 a0 a1 a2 a4 a5 a6) a1 a2 (invDegree a2)
/-- The second hidden layer. -/
def hid2 : (⟨S100000x64, .f32⟩ : BufTy).Contents (Elt Ideal) :=
  Cert.Branch.act (a := 100000) (k := 64) (n := 64) (agg2 a0 a1 a2 a4 a5 a6) a7 (row64 a8)
/-- The per-graph mean of the second hidden layer. -/
def pooled : (⟨S128x64, .f32⟩ : BufTy).Contents (Elt Ideal) := graphMean (hid2 a0 a1 a2 a4 a5 a6 a7 a8) a3
/-- The network's result. -/
def logits : (⟨S128x20, .f32⟩ : BufTy).Contents (Elt Ideal) :=
  Cert.Dense.biased (a := 128) (k := 64) (n := 20) (pooled a0 a1 a2 a3 a4 a5 a6 a7 a8) a9 (row20 a10)
end Stages

variable (m : (ℓ : Loc nD τ sig) → Buf (Elt Ideal) ℓ) (ρ : Dev nD → PrngReg) (c : Dev nD)

/-! ## The argument arrays read at each boundary -/

theorem kept1_arg1 : V1 m ρ c main_arg1 = (m ((c : Thread nD τ).loc main_arg1)) := by
  show StableHlo.after hostOps0 (W0 m ρ c) (Proc.devRef .tc main_arg1) = _
  after_results_simp <;> rfl
theorem kept1_arg2 : V1 m ρ c main_arg2 = (m ((c : Thread nD τ).loc main_arg2)) := by
  show StableHlo.after hostOps0 (W0 m ρ c) (Proc.devRef .tc main_arg2) = _
  after_results_simp <;> rfl
theorem kept1_arg3 : V1 m ρ c main_arg3 = (m ((c : Thread nD τ).loc main_arg3)) := by
  show StableHlo.after hostOps0 (W0 m ρ c) (Proc.devRef .tc main_arg3) = _
  after_results_simp <;> rfl
theorem kept1_arg5 : V1 m ρ c main_arg5 = (m ((c : Thread nD τ).loc main_arg5)) := by
  show StableHlo.after hostOps0 (W0 m ρ c) (Proc.devRef .tc main_arg5) = _
  after_results_simp <;> rfl
theorem kept1_arg7 : V1 m ρ c main_arg7 = (m ((c : Thread nD τ).loc main_arg7)) := by
  show StableHlo.after hostOps0 (W0 m ρ c) (Proc.devRef .tc main_arg7) = _
  after_results_simp <;> rfl
theorem kept1_arg8 : V1 m ρ c main_arg8 = (m ((c : Thread nD τ).loc main_arg8)) := by
  show StableHlo.after hostOps0 (W0 m ρ c) (Proc.devRef .tc main_arg8) = _
  after_results_simp <;> rfl
theorem kept1_arg9 : V1 m ρ c main_arg9 = (m ((c : Thread nD τ).loc main_arg9)) := by
  show StableHlo.after hostOps0 (W0 m ρ c) (Proc.devRef .tc main_arg9) = _
  after_results_simp <;> rfl
theorem kept1_arg10 : V1 m ρ c main_arg10 = (m ((c : Thread nD τ).loc main_arg10)) := by
  show StableHlo.after hostOps0 (W0 m ρ c) (Proc.devRef .tc main_arg10) = _
  after_results_simp <;> rfl
theorem kept2_arg1 : V2 m ρ c main_arg1 = (m ((c : Thread nD τ).loc main_arg1)) :=
  (W2_of_ne m ρ c main_arg1 (by decide)).trans (kept1_arg1 m ρ c)
theorem kept2_arg2 : V2 m ρ c main_arg2 = (m ((c : Thread nD τ).loc main_arg2)) :=
  (W2_of_ne m ρ c main_arg2 (by decide)).trans (kept1_arg2 m ρ c)
theorem kept2_arg3 : V2 m ρ c main_arg3 = (m ((c : Thread nD τ).loc main_arg3)) :=
  (W2_of_ne m ρ c main_arg3 (by decide)).trans (kept1_arg3 m ρ c)
theorem kept2_arg7 : V2 m ρ c main_arg7 = (m ((c : Thread nD τ).loc main_arg7)) :=
  (W2_of_ne m ρ c main_arg7 (by decide)).trans (kept1_arg7 m ρ c)
theorem kept2_arg8 : V2 m ρ c main_arg8 = (m ((c : Thread nD τ).loc main_arg8)) :=
  (W2_of_ne m ρ c main_arg8 (by decide)).trans (kept1_arg8 m ρ c)
theorem kept2_arg9 : V2 m ρ c main_arg9 = (m ((c : Thread nD τ).loc main_arg9)) :=
  (W2_of_ne m ρ c main_arg9 (by decide)).trans (kept1_arg9 m ρ c)
theorem kept2_arg10 : V2 m ρ c main_arg10 = (m ((c : Thread nD τ).loc main_arg10)) :=
  (W2_of_ne m ρ c main_arg10 (by decide)).trans (kept1_arg10 m ρ c)
theorem kept3_arg3 : V3 m ρ c main_arg3 = (m ((c : Thread nD τ).loc main_arg3)) :=
  (show StableHlo.after hostOps1 (W2 m ρ c) (Proc.devRef .tc main_arg3) = V2 m ρ c main_arg3 by
    after_results_simp <;> rfl).trans (kept2_arg3 m ρ c)
theorem kept3_arg7 : V3 m ρ c main_arg7 = (m ((c : Thread nD τ).loc main_arg7)) :=
  (show StableHlo.after hostOps1 (W2 m ρ c) (Proc.devRef .tc main_arg7) = V2 m ρ c main_arg7 by
    after_results_simp <;> rfl).trans (kept2_arg7 m ρ c)
theorem kept3_arg9 : V3 m ρ c main_arg9 = (m ((c : Thread nD τ).loc main_arg9)) :=
  (show StableHlo.after hostOps1 (W2 m ρ c) (Proc.devRef .tc main_arg9) = V2 m ρ c main_arg9 by
    after_results_simp <;> rfl).trans (kept2_arg9 m ρ c)
theorem kept3_arg10 : V3 m ρ c main_arg10 = (m ((c : Thread nD τ).loc main_arg10)) :=
  (show StableHlo.after hostOps1 (W2 m ρ c) (Proc.devRef .tc main_arg10) = V2 m ρ c main_arg10 by
    after_results_simp <;> rfl).trans (kept2_arg10 m ρ c)
theorem kept4_arg3 : V4 m ρ c main_arg3 = (m ((c : Thread nD τ).loc main_arg3)) :=
  (W4_of_ne m ρ c main_arg3 (by decide)).trans (kept3_arg3 m ρ c)
theorem kept4_arg9 : V4 m ρ c main_arg9 = (m ((c : Thread nD τ).loc main_arg9)) :=
  (W4_of_ne m ρ c main_arg9 (by decide)).trans (kept3_arg9 m ρ c)
theorem kept4_arg10 : V4 m ρ c main_arg10 = (m ((c : Thread nD τ).loc main_arg10)) :=
  (W4_of_ne m ρ c main_arg10 (by decide)).trans (kept3_arg10 m ρ c)
theorem kept5_arg9 : V5 m ρ c main_arg9 = (m ((c : Thread nD τ).loc main_arg9)) :=
  (show StableHlo.after hostOps2 (W4 m ρ c) (Proc.devRef .tc main_arg9) = V4 m ρ c main_arg9 by
    after_results_simp <;> rfl).trans (kept4_arg9 m ρ c)

/-! ## The first stretch of host operations, and the first hidden layer -/

theorem stretch0_agg : V1 m ρ c main_v27 = agg1 (m ((c : Thread nD τ).loc main_arg0)) (m ((c : Thread nD τ).loc main_arg1)) (m ((c : Thread nD τ).loc main_arg2)) (m ((c : Thread nD τ).loc main_arg4)) := by
  show StableHlo.after hostOps0 (W0 m ρ c) (Proc.devRef .tc main_v27) = _
  after_results_simp <;> rfl

theorem stretch0_inv : V1 m ρ c main_v15 = invDegree (m ((c : Thread nD τ).loc main_arg2)) := by
  show StableHlo.after hostOps0 (W0 m ρ c) (Proc.devRef .tc main_v15) = _
  after_results_simp <;> rfl

theorem stretch0_row : V1 m ρ c main_v28 = row64 (m ((c : Thread nD τ).loc main_arg6)) := by
  show StableHlo.after hostOps0 (W0 m ρ c) (Proc.devRef .tc main_v28) = _
  after_results_simp <;> rfl

theorem region0 : V2 m ρ c main_v29 = hid1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine ((W2_arr m ρ c 3).trans (Cert.KernelIdeal.Hidden1.result (V1 m ρ) c)).trans ?_
  rw [stretch0_agg, kept1_arg5, stretch0_row]
  rfl

/-! ## The second stretch, and the second hidden layer -/

theorem stretch1_agg : V3 m ρ c main_v41
    = aggregate (V2 m ρ c main_v29) (V2 m ρ c main_arg1) (V2 m ρ c main_arg2) (V2 m ρ c main_v15) := by
  show StableHlo.after hostOps1 (W2 m ρ c) (Proc.devRef .tc main_v41) = _
  after_results_simp <;> rfl

theorem stretch1_row : V3 m ρ c main_v42 = row64 (V2 m ρ c main_arg8) := by
  show StableHlo.after hostOps1 (W2 m ρ c) (Proc.devRef .tc main_v42) = _
  after_results_simp <;> rfl

theorem kept2_inv : V2 m ρ c main_v15 = invDegree (m ((c : Thread nD τ).loc main_arg2)) :=
  (W2_of_ne m ρ c main_v15 (by decide)).trans (stretch0_inv m ρ c)

theorem region1 : V4 m ρ c main_v43 = hid2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 3).trans (Cert.KernelIdeal.Hidden2.result (V3 m ρ) c)).trans ?_
  rw [stretch1_agg, region0, kept2_arg1, kept2_arg2, kept2_inv, kept3_arg7, stretch1_row, kept2_arg8]
  rfl

/-! ## The third stretch, and the classifier head -/

theorem stretch2_pool : V5 m ρ c main_v55 = graphMean (V4 m ρ c main_v43) (V4 m ρ c main_arg3) := by
  show StableHlo.after hostOps2 (W4 m ρ c) (Proc.devRef .tc main_v55) = _
  after_results_simp <;> rfl

theorem stretch2_row : V5 m ρ c main_v56 = row20 (V4 m ρ c main_arg10) := by
  show StableHlo.after hostOps2 (W4 m ρ c) (Proc.devRef .tc main_v56) = _
  after_results_simp <;> rfl

/-- The result array at the last boundary is the network of the argument arrays as launched. -/
theorem result : W6 m ρ c (Proc.devRef .tc main_v57)
    = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 3).trans (Cert.KernelIdeal.Head.result (V5 m ρ) c)).trans ?_
  rw [stretch2_pool, region1, kept4_arg3, kept5_arg9, stretch2_row, kept4_arg10]
  rfl

end Cert.KernelIdeal.Net

end
-- ==== Proof.ChainsReference.lean ====
/-
  The host-side stages of the network that are not dense layers, each as one named function of its operands.

  embed      — the embedding lookup: row tokens(r) of the table, a negative token counted from the end of the 50000
               rows (the indexing convention), then clamped into the table by the gather.
  invDegree  — for each node, 1 / max(number of edges arriving at it, 1), kept as a column [100000, 1]: ones are
               scatter-added at the edges' destinations, the count is raised to at least one, and one is divided by it.
  aggregate  — mean aggregation over incoming edges: the features are gathered at the edges' sources (a negative
               source counted from the end of the 100000 rows), scatter-added at the edges' destinations, and every
               row is multiplied by its node's inverse degree.
  graphMean  — mean pooling per graph: the node features are scatter-added at the nodes' graph numbers into 128
               rows and each row is divided by max(number of nodes of that graph, 1).

  The two programs apply exactly these operations, with the same literals, to the same arrays.  The proof never
  reasons about what a stage computes, only that both programs spell it the same way.  The functions are stated for
  any interpretation F of the floating-point operations.
-/
import proofs.«151757_j9783935500741_1_alg».proof.Proof.Gen.ReferenceIdeal

noncomputable section

namespace Cert.ReferenceIdeal.Chains

open Cert.ReferenceIdeal Cert.ReferenceIdeal.Gen Idealize.ShloMosaic

variable {F : FTy → Type} [FloatOps F]

/-- The embedding lookup  table[tokens]. -/
def embed (a0 : (⟨S100000, .i32⟩ : BufTy).Contents (Elt F)) (a4 : (⟨S50000x64, .f32⟩ : BufTy).Contents (Elt F)) :
    (⟨S100000x64, .f32⟩ : BufTy).Contents (Elt F) :=
  Host.gather gather_S50000x64_S100000x1_S100000x64_1_0_n_n_0_1_164 a4 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 50000#32))) a0))

/-- The column of inverse in-degrees  1 / max(deg, 1). -/
def invDegree (a2 : (⟨S1600000, .i32⟩ : BufTy).Contents (Elt F)) : (⟨S100000x1, .f32⟩ : BufTy).Contents (Elt F) :=
  broadcastInDim S100000x1 ![0] bcast_S100000_S100000x1_0 (Host.divf (broadcastInDim S100000 ![] bcast_S_S100000 (constant S_ .f32 0x3F800000#32)) (maximumf (Host.scatterAdd scatter_S100000_S1600000x1_S1600000_n_0_0_1 (broadcastInDim S100000 ![] bcast_S_S100000 (constant S_ .f32 0x00000000#32)) (broadcastInDim S1600000x1 ![0] bcast_S1600000_S1600000x1_0 a2) (broadcastInDim S1600000 ![] bcast_S_S1600000 (constant S_ .f32 0x3F800000#32))) (broadcastInDim S100000 ![] bcast_S_S100000 (constant S_ .f32 0x3F800000#32))))

/-- Mean aggregation of the features h over incoming edges, given the column s of inverse in-degrees. -/
def aggregate (h : (⟨S100000x64, .f32⟩ : BufTy).Contents (Elt F)) (a1 a2 : (⟨S1600000, .i32⟩ : BufTy).Contents (Elt F))
    (s : (⟨S100000x1, .f32⟩ : BufTy).Contents (Elt F)) : (⟨S100000x64, .f32⟩ : BufTy).Contents (Elt F) :=
  mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 a2) (Host.gather gather_S100000x64_S1600000x1_S1600000x64_1_0_n_n_0_1_164 h (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) (broadcastInDim S100000x64 ![0, 1] bcast_S100000x1_S100000x64_0_1 s)

/-- Mean pooling of the node features h per graph. -/
def graphMean (h : (⟨S100000x64, .f32⟩ : BufTy).Contents (Elt F)) (a3 : (⟨S100000, .i32⟩ : BufTy).Contents (Elt F)) :
    (⟨S128x64, .f32⟩ : BufTy).Contents (Elt F) :=
  Host.divf (Host.scatterAdd scatter_S128x64_S100000x1_S100000x64_1_0_0_1 (broadcastInDim S128x64 ![] bcast_S_S128x64 (constant S_ .f32 0x00000000#32)) (broadcastInDim S100000x1 ![0] bcast_S100000_S100000x1_0 a3) h) (broadcastInDim S128x64 ![0, 1] bcast_S128x1_S128x64_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 a3) (broadcastInDim S100000 ![] bcast_S_S100000 (constant S_ .f32 0x3F800000#32))) (broadcastInDim S128 ![] bcast_S_S128 (constant S_ .f32 0x3F800000#32)))))

end Cert.ReferenceIdeal.Chains

end
-- ==== Proof.ReferenceValue.lean ====
/-
  The reference's result as the network's stages composed.

  The reference computes: the embedding lookup; then twice  mean aggregation over incoming edges followed by a dense
  layer with bias and rectifier (the product by dot_general, the bias row laid over the rows, the larger of the sum and
  zero); then mean pooling per graph; then the classifier head (a product plus a bias row).  The run of the reference
  ends with its result at exactly this composition of the argument arrays.
-/
import proofs.«151757_j9783935500741_1_alg».proof.Proof.Gen.ReferenceIdeal.Run
import proofs.«151757_j9783935500741_1_alg».proof.Proof.ChainsReference

noncomputable section

namespace Cert.ReferenceIdeal.Net

open Cert.ReferenceIdeal Cert.ReferenceIdeal.Gen Cert.ReferenceIdeal.Chains Idealize.ShloMosaic Idealize.ShloMosaic.TcCoe Idealize.SL.Sem

variable {F : FTy → Type} [FloatOps F]

/-- A hidden layer as the host spells it: max(A W + b, 0). -/
def layer (A : (⟨S100000x64, .f32⟩ : BufTy).Contents (Elt F)) (W : (⟨S64x64, .f32⟩ : BufTy).Contents (Elt F))
    (b : (⟨S64, .f32⟩ : BufTy).Contents (Elt F)) : (⟨S100000x64, .f32⟩ : BufTy).Contents (Elt F) :=
  maximumf (addf (Host.dotGeneral dot_S100000x64_S64x64_S100000x64_1_0_0_1_n_n none A W) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The classifier head as the host spells it: A W + b. -/
def head (A : (⟨S128x64, .f32⟩ : BufTy).Contents (Elt F)) (W : (⟨S64x20, .f32⟩ : BufTy).Contents (Elt F))
    (b : (⟨S20, .f32⟩ : BufTy).Contents (Elt F)) : (⟨S128x20, .f32⟩ : BufTy).Contents (Elt F) :=
  addf (Host.dotGeneral dot_S128x64_S64x20_S128x20_1_0_0_1_n_n none A W) (broadcastInDim S128x20 ![0, 1] bcast_S1x20_S128x20_0_1 (broadcastInDim S1x20 ![1] bcast_S20_S1x20_1 b))

/-- The whole network on the eleven argument arrays. -/
def logits (a0 : (⟨S100000, .i32⟩ : BufTy).Contents (Elt F)) (a1 a2 : (⟨S1600000, .i32⟩ : BufTy).Contents (Elt F))
    (a3 : (⟨S100000, .i32⟩ : BufTy).Contents (Elt F)) (a4 : (⟨S50000x64, .f32⟩ : BufTy).Contents (Elt F))
    (a5 : (⟨S64x64, .f32⟩ : BufTy).Contents (Elt F)) (a6 : (⟨S64, .f32⟩ : BufTy).Contents (Elt F))
    (a7 : (⟨S64x64, .f32⟩ : BufTy).Contents (Elt F)) (a8 : (⟨S64, .f32⟩ : BufTy).Contents (Elt F))
    (a9 : (⟨S64x20, .f32⟩ : BufTy).Contents (Elt F)) (a10 : (⟨S20, .f32⟩ : BufTy).Contents (Elt F)) :
    (⟨S128x20, .f32⟩ : BufTy).Contents (Elt F) :=
  head (graphMean (layer (aggregate (layer (aggregate (embed a0 a4) a1 a2 (invDegree a2)) a5 a6) a1 a2 (invDegree a2)) a7 a8) a3) a9 a10

variable (m : (ℓ : Loc nD τ sig) → Buf (Elt F) ℓ)

/-- The composed term the reference's run ends at is the network of the argument arrays. -/
theorem result_eq (c : Dev nD) :
    Cert.ReferenceIdeal.Value.res_main_v65 m c
      = logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v65 logits head graphMean layer aggregate invDegree embed
  rfl

end Cert.ReferenceIdeal.Net

end
-- ==== Proof.Bridge.lean ====
/-
  The two programs compute one function.

  Both apply the same host stages (embedding lookup, inverse in-degrees, mean aggregation, mean pooling): the two
  printed programs spell them with the same operations, dimension numbers and literals, so they agree by definition.
  They differ only in how a dense layer is spelt.  The reference forms A W with dot_general, lays the bias vector out
  as a row by a broadcast and that row over all rows, adds, and for a hidden layer takes the larger of the sum and a
  zero laid over everything.  The kernel reshapes the bias vector into a row on the host and computes, tile by tile,
  the matrix-unit product plus the row, and the maximum with zero.  On the extended reals both are
  max(sum over c of A(r, c) W(c, q) + b(q), 0), respectively the same without the maximum; and a vector reshaped to
  one row is the vector broadcast to one row.  No arithmetic law beyond that is used, so nothing here needs the
  inputs to be finite.
-/
import proofs.«151757_j9783935500741_1_alg».proof.Proof.KernelValue
import proofs.«151757_j9783935500741_1_alg».proof.Proof.ReferenceValue

noncomputable section

namespace Cert.Bridge

open Idealize.ShloMosaic

/-! ## The shared stages agree by definition -/

theorem embed_eq (a0 : (⟨Cert.KernelIdeal.S100000, .i32⟩ : BufTy).Contents (Elt Ideal)) (a4 : (⟨Cert.KernelIdeal.S50000x64, .f32⟩ : BufTy).Contents (Elt Ideal)) :
    Cert.ReferenceIdeal.Chains.embed (F := Ideal) a0 a4 = Cert.KernelIdeal.Chains.embed (F := Ideal) a0 a4 := rfl

theorem invDegree_eq (a2 : (⟨Cert.KernelIdeal.S1600000, .i32⟩ : BufTy).Contents (Elt Ideal)) :
    Cert.ReferenceIdeal.Chains.invDegree (F := Ideal) a2 = Cert.KernelIdeal.Chains.invDegree (F := Ideal) a2 := rfl

theorem aggregate_eq (h : (⟨Cert.KernelIdeal.S100000x64, .f32⟩ : BufTy).Contents (Elt Ideal)) (a1 : (⟨Cert.KernelIdeal.S1600000, .i32⟩ : BufTy).Contents (Elt Ideal)) (a2 : (⟨Cert.KernelIdeal.S1600000, .i32⟩ : BufTy).Contents (Elt Ideal))
    (s : (⟨Cert.KernelIdeal.S100000x1, .f32⟩ : BufTy).Contents (Elt Ideal)) :
    Cert.ReferenceIdeal.Chains.aggregate (F := Ideal) h a1 a2 s = Cert.KernelIdeal.Chains.aggregate (F := Ideal) h a1 a2 s := rfl

theorem graphMean_eq (h : (⟨Cert.KernelIdeal.S100000x64, .f32⟩ : BufTy).Contents (Elt Ideal)) (a3 : (⟨Cert.KernelIdeal.S100000, .i32⟩ : BufTy).Contents (Elt Ideal)) :
    Cert.ReferenceIdeal.Chains.graphMean (F := Ideal) h a3 = Cert.KernelIdeal.Chains.graphMean (F := Ideal) h a3 := rfl

/-! ## A dense layer in the host's spelling is the layer the tiles compute -/

/-- A hidden layer: dot_general, the bias broadcast to a row and over the rows, the maximum with a zero laid over
    everything — the rectified layer with the bias vector reshaped to one row. -/
theorem layer_eq (A : (⟨Cert.KernelIdeal.S100000x64, .f32⟩ : BufTy).Contents (Elt Ideal))
    (W : (⟨Cert.KernelIdeal.S64x64, .f32⟩ : BufTy).Contents (Elt Ideal))
    (b : (⟨Cert.KernelIdeal.S64, .f32⟩ : BufTy).Contents (Elt Ideal)) :
    Cert.ReferenceIdeal.Net.layer (F := Ideal) A W b
      = Cert.Branch.act (a := 100000) (k := 64) (n := 64) A W (Cert.KernelIdeal.Net.row64 b) := by
  unfold Cert.ReferenceIdeal.Net.layer Cert.KernelIdeal.Net.row64
  rw [Cert.Dense.row_cast_eq_bcast (n := 64) b Cert.KernelIdeal.Gen.shapeCasts_S64_S1x64
    Cert.ReferenceIdeal.Gen.bcast_S64_S1x64_1]
  exact Cert.Branch.host_act (a := 100000) (k := 64) (n := 64)
    Cert.ReferenceIdeal.dot_S100000x64_S64x64_S100000x64_1_0_0_1_n_n rfl rfl rfl rfl rfl rfl A W
    (broadcastInDim (⟨2, ![1, 64]⟩ : Shape) ![1] Cert.ReferenceIdeal.Gen.bcast_S64_S1x64_1 b)
    Cert.ReferenceIdeal.Gen.bcast_S1x64_S100000x64_0_1 Cert.ReferenceIdeal.Gen.bcast_S_S100000x64

/-- The classifier head: dot_general plus the bias broadcast to a row and over the rows — the biased product with the
    bias vector reshaped to one row. -/
theorem head_eq (A : (⟨Cert.KernelIdeal.S128x64, .f32⟩ : BufTy).Contents (Elt Ideal))
    (W : (⟨Cert.KernelIdeal.S64x20, .f32⟩ : BufTy).Contents (Elt Ideal))
    (b : (⟨Cert.KernelIdeal.S20, .f32⟩ : BufTy).Contents (Elt Ideal)) :
    Cert.ReferenceIdeal.Net.head (F := Ideal) A W b
      = Cert.Dense.biased (a := 128) (k := 64) (n := 20) A W (Cert.KernelIdeal.Net.row20 b) := by
  unfold Cert.ReferenceIdeal.Net.head Cert.KernelIdeal.Net.row20
  rw [Cert.Dense.row_cast_eq_bcast (n := 20) b Cert.KernelIdeal.Gen.shapeCasts_S20_S1x20
    Cert.ReferenceIdeal.Gen.bcast_S20_S1x20_1]
  exact (Cert.Dense.biased_eq_host (a := 128) (k := 64) (n := 20)
    Cert.ReferenceIdeal.dot_S128x64_S64x20_S128x20_1_0_0_1_n_n rfl rfl rfl rfl rfl rfl A W
    (broadcastInDim (⟨2, ![1, 20]⟩ : Shape) ![1] Cert.ReferenceIdeal.Gen.bcast_S20_S1x20_1 b)
    Cert.ReferenceIdeal.Gen.bcast_S1x20_S128x20_0_1).symm

/-! ## The whole network -/

/-- The reference's network is the kernel's network, as functions of the eleven argument arrays. -/
theorem logits_eq (a0 : (⟨Cert.KernelIdeal.S100000, .i32⟩ : BufTy).Contents (Elt Ideal)) (a1 : (⟨Cert.KernelIdeal.S1600000, .i32⟩ : BufTy).Contents (Elt Ideal)) (a2 : (⟨Cert.KernelIdeal.S1600000, .i32⟩ : BufTy).Contents (Elt Ideal)) (a3 : (⟨Cert.KernelIdeal.S100000, .i32⟩ : BufTy).Contents (Elt Ideal)) (a4 : (⟨Cert.KernelIdeal.S50000x64, .f32⟩ : BufTy).Contents (Elt Ideal)) (a5 : (⟨Cert.KernelIdeal.S64x64, .f32⟩ : BufTy).Contents (Elt Ideal)) (a6 : (⟨Cert.KernelIdeal.S64, .f32⟩ : BufTy).Contents (Elt Ideal)) (a7 : (⟨Cert.KernelIdeal.S64x64, .f32⟩ : BufTy).Contents (Elt Ideal)) (a8 : (⟨Cert.KernelIdeal.S64, .f32⟩ : BufTy).Contents (Elt Ideal)) (a9 : (⟨Cert.KernelIdeal.S64x20, .f32⟩ : BufTy).Contents (Elt Ideal)) (a10 : (⟨Cert.KernelIdeal.S20, .f32⟩ : BufTy).Contents (Elt Ideal)) :
    Cert.ReferenceIdeal.Net.logits (F := Ideal) a0 a1 a2 a3 a4 a5 a6 a7 a8 a9 a10
      = Cert.KernelIdeal.Net.logits a0 a1 a2 a3 a4 a5 a6 a7 a8 a9 a10 := by
  unfold Cert.ReferenceIdeal.Net.logits Cert.KernelIdeal.Net.logits Cert.KernelIdeal.Net.pooled Cert.KernelIdeal.Net.hid2
    Cert.KernelIdeal.Net.agg2 Cert.KernelIdeal.Net.hid1 Cert.KernelIdeal.Net.agg1
  rw [head_eq, layer_eq, layer_eq, embed_eq, invDegree_eq, aggregate_eq, aggregate_eq, graphMean_eq]

end Cert.Bridge

end
-- ==== Proof.lean ====
/-
  A two-layer graph network with mean aggregation and a linear classifier head: the kernel against its reference.

  Both programs compute, from token numbers, an edge list, graph numbers, an embedding table and three pairs of
  weights and biases:
    h0 = table[tokens];   s = 1 / max(in-degree, 1);
    h1 = max((mean over incoming edges of h0) W1 + b1, 0);
    h2 = max((mean over incoming edges of h1) W2 + b2, 0);
    result = (mean over each graph's nodes of h2) Wc + bc.
  The gathers, scatter-adds, the inverse degrees and the per-graph means are the same host operations in both.  The
  reference forms each dense layer on the host; the kernel forms it in a region of its own, twenty tiles of 5000 rows
  for the hidden layers and one tile of 128 rows for the head, with the operands rounded to bfloat16 on the way into
  the matrix unit.  On the extended reals a rounding is the identity and a product into a zero accumulator is the
  plain sum, so each region leaves exactly the host's layer of the arrays it finds (an entry of a dense layer reads
  only its own row, and the tiles cover the rows).  Threading this through the three stretches of host operations,
  both runs end with the same function of the argument arrays.

  The three frame claims are the generated runs; the idealization rewrote nothing, so the kernel's idealized program
  is its own text read on the extended reals.
-/
import proofs.«151757_j9783935500741_1_alg».proof.Defs
import proofs.«151757_j9783935500741_1_alg».proof.Proof.Gen.Kernel
import proofs.«151757_j9783935500741_1_alg».proof.Proof.Gen.Kernel.Skeleton
import proofs.«151757_j9783935500741_1_alg».proof.Proof.Gen.Kernel.Launch
import proofs.«151757_j9783935500741_1_alg».proof.Proof.Gen.Kernel.Points
import proofs.«151757_j9783935500741_1_alg».proof.Proof.Gen.Kernel.Frame
import proofs.«151757_j9783935500741_1_alg».proof.Proof.Gen.KernelIdeal
import proofs.«151757_j9783935500741_1_alg».proof.Proof.Gen.KernelIdeal.Skeleton
import proofs.«151757_j9783935500741_1_alg».proof.Proof.Gen.KernelIdeal.Launch
import proofs.«151757_j9783935500741_1_alg».proof.Proof.Gen.KernelIdeal.Points
import proofs.«151757_j9783935500741_1_alg».proof.Proof.Gen.KernelIdeal.Frame
import proofs.«151757_j9783935500741_1_alg».proof.Proof.Gen.ReferenceIdeal
import proofs.«151757_j9783935500741_1_alg».proof.Proof.Gen.ReferenceIdeal.Run
import proofs.«151757_j9783935500741_1_alg».proof.Proof.Gen.ReferenceIdeal.Read
import proofs.«151757_j9783935500741_1_alg».proof.Proof.Gen.Pre_finite_inputs
import proofs.«151757_j9783935500741_1_alg».proof.Proof.KernelRun
import proofs.«151757_j9783935500741_1_alg».proof.Proof.KernelValue
import proofs.«151757_j9783935500741_1_alg».proof.Proof.ReferenceValue
import proofs.«151757_j9783935500741_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference runs and leaves its arguments as launched: its generated run, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both idealized programs end with the network of those arguments as their
    result: the kernel by its run read boundary by boundary, the reference by its run's composed term, and the two
    networks are one function. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W6 m ρ c (Proc.devRef .tc Cert.KernelIdeal.main_v57), ?_, ?_⟩
  · exact Cert.KernelIdeal.Run.named (F := Ideal) m ρ
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Net.result_eq m' c, e0, e1, e2, e3, e4, e5, e6, e7, e8, e9, e10]
    exact (Cert.Bridge.logits_eq _ _ _ _ _ _ _ _ _ _ _).trans (Cert.KernelIdeal.Net.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
